-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S64x128 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S800000x128 : Shape := ⟨2, ![800000, 128]⟩
abbrev S1x64 : Shape := ⟨2, ![1, 64]⟩

abbrev nBuf : Space → Nat
  | .hbm => 64
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S1x64, .f32⟩
  | .hbm, ⟨62, _⟩ => ⟨S50000x128, .f32⟩
  | .hbm, ⟨63, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S128x64, .f32⟩
  | .local _ .vmem, ⟨5, _⟩ => ⟨S1x128, .f32⟩
  | .local _ .vmem, ⟨6, _⟩ => ⟨S128x64, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S64x128, .f32⟩
  | .local _ .vmem, ⟨17, _⟩ => ⟨S1x64, .f32⟩
  | .local _ .vmem, ⟨18, _⟩ => ⟨S2000x128, .f32⟩
  | .local _ .vmem, ⟨19, _⟩ => ⟨S2000x128, .f32⟩
  | .local _ .vmem, ⟨20, _⟩ => ⟨S2000x64, .f32⟩
  | .local _ .vmem, ⟨21, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42_0 : Ref sig .tc := ⟨.hbm, 62, rfl⟩
abbrev main_v42_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S50000x64.size a
  hwx1_8 : ∀ i : grid1.Coords, EltTy.bits .f32 = 32 ∨ (Rect.block (s := S50000x64) S2000x64.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v42_1) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S64x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S64x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S128x64, .f32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run with its two result arrays named.

  @main is a stretch of host operations, the first pallas region, a second stretch of host operations and the second
  pallas region.  The run ends with every buffer of the TensorCore at the last segment boundary's contents; read at the
  two result buffers, those are what the second region's write-backs leave of its two output windows, and at the ten
  argument buffers the contents the program was launched with.
-/
import proofs.«174159_j26508538150912_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two results end at the second region's output
    arrays after all 25 write-backs, computed from that region's entry contents, and the arguments end as launched. -/
theorem run_results : θ_run defs (onTc (τ := τ) (main (F := F))) ⟨m, fun _ => 0, ρ⟩ (fun r => ∀ c : Dev nD,
      r.2.mem ((c.tc : Thread nD τ).loc main_v42_0) = (dat1 (V3 m ρ) c).arrAt 7 cfg1.N
      ∧ r.2.mem ((c.tc : Thread nD τ).loc main_v42_1) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v42_0 (by decide))).trans (W4_arr m ρ c 7),
       (h c _ (mem_uc main_v42_1 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibLinearLayer.lean ====
/-
  A linear layer  mean · Wlᵀ + b + x · Wrᵀ  over the extended reals, read at an output index.

  The weights are stored [o, k] (output features by input features); a kernel transposes each weight to [k, o] and
  multiplies it from the left by an [n, k] block into a zero accumulator, so the product's (p, q) entry is the sum over
  the k input features of block (p, j) · weight (q, j).  The bias is a row [1, o] broadcast down the n rows.  The whole
  layer at (p, q) is therefore

      (∑ j, mean (p, j) · Wl (q, j)) + b (0, q) + ∑ j, x (p, j) · Wr (q, j),

  associated as the operations are applied: the first product, then the bias, then the second product.
  A change of float format on the way into a product is the identity on extended reals.
-/
import Idealize.ShloMosaic.Lib.ValueIdx
import Idealize.ShloMosaic.Lib.ValueLayout
import Idealize.ShloMosaic.Lib.Pipeline.Value
import Idealize.ShloMosaic.PureOps.Ideal.Laws
import proofs.«174159_j26508538150912_2_alg».proof.Proof.LibPlainDot

noncomputable section

namespace Cert.Lib.LinearLayer

open Idealize.ShloMosaic Idealize.ShloMosaic.ValueIdx

/-- An [a, b] array of extended reals. -/
abbrev Mat (a b : Nat) : Type := (⟨2, ![a, b]⟩ : Shape).Idx → EReal

/-- The layer at row `p`, output feature `q`. -/
def lin {n k o : Nat} (mean x : Mat n k) (Wl Wr : Mat o k) (b : Mat 1 o) (p : Fin n) (q : Fin o) : EReal :=
  (∑ j : Fin k, mean (ix2 p j) * Wl (ix2 q j)) + b (ix2 (0 : Fin 1) q) + ∑ j : Fin k, x (ix2 p j) * Wr (ix2 q j)

/-- One product with a bias: `z · Wᵀ + b` at row `p`, output feature `q`. -/
def proj {n k o : Nat} (z : Mat n k) (W : Mat o k) (b : Mat 1 o) (p : Fin n) (q : Fin o) : EReal :=
  (∑ j : Fin k, z (ix2 p j) * W (ix2 q j)) + b (ix2 (0 : Fin 1) q)

/-- The layer over whole arrays. -/
def layer {n k o : Nat} (mean x : Mat n k) (Wl Wr : Mat o k) (b : Mat 1 o) : Mat n o :=
  fun i => lin mean x Wl Wr b (i 0) (i 1)

/-- The layer followed by the maximum with the f32 zero word, over whole arrays. -/
def reluLayer {n k o : Nat} (mean x : Mat n k) (Wl Wr : Mat o k) (b : Mat 1 o) : Mat n o :=
  fun i => max (lin mean x Wl Wr b (i 0) (i 1)) (Ideal.ofBits .f32 0x00000000#32)

/-- The product with a bias over whole arrays. -/
def projLayer {n k o : Nat} (z : Mat n k) (W : Mat o k) (b : Mat 1 o) : Mat n o :=
  fun i => proj z W b (i 0) (i 1)

/-- A block times a transposed weight into a zero accumulator, at (p, q): the sum over the shared axis of
    block (p, j) · weight (q, j). -/
theorem matmul_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.matmul (Cert.Lib.plainDot M K N wf) prec l (transpose ⟨2, ![K, N]⟩ [1, 0] w ht)
        (constant (F := Ideal) ⟨2, ![M, N]⟩ .f32 0x00000000#32) (ix2 p q)
      = ∑ j : Fin K, l (ix2 p j) * w (ix2 q j) := by
  rw [Cert.Lib.matmul_zero_apply]
  exact Finset.sum_congr rfl fun j _ => by rw [transpose_ix2_apply]

/-- The host's product of an array with a transposed weight, at (p, q). -/
theorem dotGeneral_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.dotGeneral (Cert.Lib.plainDot M K N wf) prec sched l (transpose ⟨2, ![K, N]⟩ [1, 0] w ht) (ix2 p q)
      = ∑ j : Fin K, l (ix2 p j) * w (ix2 q j) := by
  rw [Cert.Lib.dotGeneral_plain_apply]
  exact Finset.sum_congr rfl fun j _ => by rw [transpose_ix2_apply]

end Cert.Lib.LinearLayer

end
-- ==== Proof.BlockPayload.lean ====
/-
  What each kernel body computes from the blocks it loads, read at one entry (p, q) of the block.

  The first kernel: relu of a linear layer of its two [2000, 64] blocks against the two [128, 64] weights and the bias
  row.  The second: the linear layer of its two [2000, 128] blocks (the embedding z), and z's projection through the
  [64, 128] reconstruction weight plus its bias row.
-/
import proofs.«174159_j26508538150912_2_alg».proof.Proof.Gen.KernelIdeal.Skeleton
import proofs.«174159_j26508538150912_2_alg».proof.Proof.LibLinearLayer

noncomputable section

namespace Cert.KernelIdeal.Block

open Cert.KernelIdeal Cert.KernelIdeal.Gen Idealize.ShloMosaic Idealize.ShloMosaic.ValueIdx Cert.Lib.LinearLayer

/-- The first kernel's stored block at (p, q): the layer, then the maximum with the zero word. -/
theorem pay0_apply (x0 x1 : Vec Ideal S2000x64 .f32) (x2 x4 : Vec Ideal S128x64 .f32) (x3 : Vec Ideal S1x128 .f32)
    (p : Fin 2000) (q : Fin 128) :
    k0_pay1 (F := Ideal) x0 x1 x2 x4 x3 (ix2 p q)
      = max (lin x0 x1 x2 x4 x3 p q) (Ideal.ofBits .f32 0x00000000#32) := by
  unfold k0_pay1
  simp only [shapeCast_self]
  rw [maximumf_apply, addf_apply, addf_apply]
  refine congrArg₂ max (congrArg₂ (· + ·) (congrArg₂ (· + ·) ?_ ?_) ?_) ?_
  · exact matmul_transposed_apply _ none _ _ _ p q
  · exact broadcastTo_1b_ab_apply _ _ p q
  · exact matmul_transposed_apply _ none _ _ _ p q
  · rfl

/-- The second kernel's first stored block (the embedding) at (p, q): the layer. -/
theorem pay1_apply (x0 x1 : Vec Ideal S2000x128 .f32) (x2 x4 : Vec Ideal S128x128 .f32) (x3 : Vec Ideal S1x128 .f32)
    (p : Fin 2000) (q : Fin 128) :
    k1_pay1 (F := Ideal) x0 x1 x2 x4 x3 (ix2 p q) = lin x0 x1 x2 x4 x3 p q := by
  unfold k1_pay1
  simp only [shapeCast_self]
  rw [addf_apply, addf_apply]
  refine congrArg₂ (· + ·) (congrArg₂ (· + ·) ?_ ?_) ?_
  · exact matmul_transposed_apply _ none _ _ _ p q
  · exact broadcastTo_1b_ab_apply _ _ p q
  · exact matmul_transposed_apply _ none _ _ _ p q

/-- The second kernel's second stored block (the reconstruction) at (p, q): the embedding block projected. -/
theorem pay2_apply (x0 x1 : Vec Ideal S2000x128 .f32) (x2 x4 : Vec Ideal S128x128 .f32) (x3 : Vec Ideal S1x128 .f32)
    (x5 : Vec Ideal S64x128 .f32) (x6 : Vec Ideal S1x64 .f32) (p : Fin 2000) (q : Fin 64) :
    k1_pay2 (F := Ideal) x0 x1 x2 x4 x3 x5 x6 (ix2 p q)
      = proj (layer x0 x1 x2 x4 x3) x5 x6 p q := by
  unfold k1_pay2
  simp only [shapeCast_self]
  rw [addf_apply]
  refine congrArg₂ (· + ·) ?_ ?_
  · refine (matmul_transposed_apply _ none _ _ _ p q).trans ?_
    exact Finset.sum_congr rfl fun j _ => congrArg (· * _) (pay1_apply x0 x1 x2 x4 x3 p j)
  · exact broadcastTo_1b_ab_apply _ _ p q

end Cert.KernelIdeal.Block

end
-- ==== Proof.HiddenRegion.lean ====
/-
  The first pallas region's output array as one function of the arrays the region finds on entry.

  The grid has 25 points; point t reads rows 2000·t … 2000·t + 1999 of the aggregated-mean array and of the node
  features, the two weights and the bias row whole, and writes back rows 2000·t … 2000·t + 1999 of the output.  Row r of
  the output therefore depends on row r of the two [50000, 64] inputs only, and the 25 written blocks tile the
  [50000, 128] output: it ends holding  relu (mean · Wlᵀ + b + x · Wrᵀ)  at every index.
-/
import proofs.«174159_j26508538150912_2_alg».proof.Proof.Gen.KernelIdeal.Frame
import proofs.«174159_j26508538150912_2_alg».proof.Proof.BlockPayload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Cert.Lib.LinearLayer Cert.KernelIdeal.Block
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- The printed index maps over the grid: the row-blocked windows sit at block row t, the others at block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated-mean block at point t is row 2000·t + p of its array. -/
theorem blk0_0 (c : Dev nD) (t : Fin cfg0.N) (p : Fin 2000) (k : Fin 64) (r : Fin 50000) (hr : r.val = 2000 * t.val + p.val) :
    iblk0 V c 0 t (ix2 p k) = V c main_v24 (ix2 r k) := by
  obtain ⟨e0, e1, -⟩ := index_facts0 t
  unfold iblk0
  rw [View.read_apply]
  show V c main_v24 _ = V c main_v24 _
  refine congrArg (V c main_v24) (funext fun a => Fin.ext ?_)
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- Row p of the node-feature block at point t is row 2000·t + p of its array. -/
theorem blk0_1 (c : Dev nD) (t : Fin cfg0.N) (p : Fin 2000) (k : Fin 64) (r : Fin 50000) (hr : r.val = 2000 * t.val + p.val) :
    iblk0 V c 1 t (ix2 p k) = V c main_arg0 (ix2 r k) := by
  obtain ⟨-, -, e0, e1, -⟩ := index_facts0 t
  unfold iblk0
  rw [View.read_apply]
  show V c main_arg0 _ = V c main_arg0 _
  refine congrArg (V c main_arg0) (funext fun a => Fin.ext ?_)
  match a with
  | ⟨0, _⟩ => show win0_1.index t (0 : Fin 2) * 2000 + 1 * p.val = r.val; rw [e0, hr]; omega
  | ⟨1, _⟩ => show win0_1.index t (1 : Fin 2) * 64 + 1 * k.val = k.val; rw [e1]; omega

/-- The first weight's block is the weight. -/
theorem blk0_2 (c : Dev nD) (t : Fin cfg0.N) (q : Fin 128) (k : Fin 64) :
    iblk0 V c 2 t (ix2 q k) = V c main_arg2 (ix2 q k) := by
  obtain ⟨-, -, -, -, e0, e1, -⟩ := index_facts0 t
  unfold iblk0
  rw [View.read_apply]
  show V c main_arg2 _ = V c main_arg2 _
  refine congrArg (V c main_arg2) (funext fun a => Fin.ext ?_)
  match a with
  | ⟨0, _⟩ => show win0_2.index t (0 : Fin 2) * 128 + 1 * q.val = q.val; rw [e0]; omega
  | ⟨1, _⟩ => show win0_2.index t (1 : Fin 2) * 64 + 1 * k.val = k.val; rw [e1]; omega

/-- The bias row's block is the bias row. -/
theorem blk0_3 (c : Dev nD) (t : Fin cfg0.N) (q : Fin 128) :
    iblk0 V c 3 t (ix2 (0 : Fin 1) q) = V c main_v25 (ix2 (0 : Fin 1) q) := by
  obtain ⟨-, -, -, -, -, -, e0, e1, -⟩ := index_facts0 t
  unfold iblk0
  rw [View.read_apply]
  show V c main_v25 _ = V c main_v25 _
  refine congrArg (V c main_v25) (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The second weight's block is the weight. -/
theorem blk0_4 (c : Dev nD) (t : Fin cfg0.N) (q : Fin 128) (k : Fin 64) :
    iblk0 V c 4 t (ix2 q k) = V c main_arg4 (ix2 q k) := by
  obtain ⟨-, -, -, -, -, -, -, -, e0, e1, -⟩ := index_facts0 t
  unfold iblk0
  rw [View.read_apply]
  show V c main_arg4 _ = V c main_arg4 _
  refine congrArg (V c main_arg4) (funext fun a => Fin.ext ?_)
  match a with
  | ⟨0, _⟩ => show win0_4.index t (0 : Fin 2) * 128 + 1 * q.val = q.val; rw [e0]; omega
  | ⟨1, _⟩ => show win0_4.index t (1 : Fin 2) * 64 + 1 * k.val = k.val; rw [e1]; omega

/-- What point t writes back is rows 2000·t … 2000·t + 1999 of relu of the layer of the whole arrays. -/
theorem flushed0 (c : Dev nD) (t : Fin cfg0.N) :
    (dat0 V c).flushed 5 t = ((cfg0.win 5).blk t).view.read (Elt Ideal)
      (reluLayer (V c main_v24) (V c main_arg0) (V c main_arg2) (V c main_arg4) (V c main_v25)) := by
  show (cfg0.win 5).cut (grid0.coords t) ((dat0 V c).after 5 t) = _
  rw [after0_5]
  unfold out0_5
  rw [View.canon_unit_zero offs_zero]
  simp only [View.ld_unit_zero (S := S2000x64) offs_zero, View.ld_unit_zero (S := S128x64) offs_zero,
    View.ld_unit_zero (S := S1x128) offs_zero]
  obtain ⟨-, -, -, -, -, -, -, -, -, -, e0, e1⟩ := index_facts0 t
  funext j
  have hj0 : (j 0).val < 2000 := (j 0).isLt
  have hj1 : (j 1).val < 128 := (j 1).isLt
  have hN : cfg0.N = 25 := N_0
  have ht : t.val < cfg0.N := t.isLt
  have hx : (cfg0.win 5).xinj (grid0.coords t) j = ix2 (⟨(j 0).val, hj0⟩ : Fin 2000) (⟨(j 1).val, hj1⟩ : Fin 128) :=
    funext fun a => by match a with | ⟨0, _⟩ => rfl | ⟨1, _⟩ => rfl
  have he : ((cfg0.win 5).blk t).view.emb j
      = ix2 (⟨2000 * t.val + (j 0).val, by omega⟩ : Fin 50000) (⟨(j 1).val, hj1⟩ : Fin 128) :=
    funext fun a => Fin.ext (by
      match a with
      | ⟨0, _⟩ => show win0_5.index t (0 : Fin 2) * 2000 + 1 * (j 0).val = 2000 * t.val + (j 0).val; rw [e0]; omega
      | ⟨1, _⟩ => show win0_5.index t (1 : Fin 2) * 128 + 1 * (j 1).val = (j 1).val; rw [e1]; omega)
  show k0_pay1 (iblk0 V c 0 t) (iblk0 V c 1 t) (iblk0 V c 2 t) (iblk0 V c 4 t) (iblk0 V c 3 t)
      ((cfg0.win 5).xinj (grid0.coords t) j)
    = reluLayer (V c main_v24) (V c main_arg0) (V c main_arg2) (V c main_arg4) (V c main_v25)
      (((cfg0.win 5).blk t).view.emb j)
  rw [hx, he]
  refine (pay0_apply (iblk0 V c 0 t) (iblk0 V c 1 t) (iblk0 V c 2 t) (iblk0 V c 4 t) (iblk0 V c 3 t) _ _).trans ?_
  unfold reluLayer lin
  refine congrArg (max · _) (congrArg₂ (· + ·) (congrArg₂ (· + ·) ?_ ?_) ?_)
  · exact Finset.sum_congr rfl fun k _ => congrArg₂ (· * ·) (blk0_0 V c t _ k _ rfl) (blk0_2 V c t _ k)
  · exact blk0_3 V c t _
  · exact Finset.sum_congr rfl fun k _ => congrArg₂ (· * ·) (blk0_1 V c t _ k _ rfl) (blk0_4 V c t _ k)

/-- An index of the output array is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v26).slice (win0_5.rect t)).set ↔ _
  rw [View.set_slice_whole, Rect.mem_set_unit]
  exact Iff.rfl

/-- Row r of the output is written by point r / 2000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := index_facts0 t
  refine ⟨t, flush0_5 t, ?_⟩
  rw [mem_blk0]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- The output array after the region: relu of the layer of the entry arrays. -/
theorem hidden_final (c : Dev nD) :
    (dat0 V c).arrAt 5 cfg0.N
      = reluLayer (V c main_v24) (V c main_arg0) (V c main_arg2) (V c main_arg4) (V c main_v25) :=
  (dat0 V c).arrAt_eq_of_cover 5 _ (fun t _ => flushed0 V c t) cover0

end Cert.KernelIdeal.Region

end
-- ==== Proof.EmbedRegion.lean ====
/-
  The second pallas region's two output arrays as functions of the arrays the region finds on entry.

  The grid has 25 points; point t reads rows 2000·t … 2000·t + 1999 of the second aggregated-mean array and of the hidden
  array, the three weights and the two bias rows whole, and writes back rows 2000·t … 2000·t + 1999 of both outputs.
  Row r of each output depends on row r of the two [50000, 128] inputs only, and the 25 written blocks tile each output.
  The first output ends holding the layer  mean · W2lᵀ + b2 + h · W2rᵀ  (the embedding z); the second ends holding
  z · Wrecᵀ + brec  with that same z.
-/
import proofs.«174159_j26508538150912_2_alg».proof.Proof.Gen.KernelIdeal.Frame
import proofs.«174159_j26508538150912_2_alg».proof.Proof.BlockPayload
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Lib.LinearLayer Cert.KernelIdeal.Block
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-- The printed index maps over the grid: the row-blocked windows (the two [50000, 128] inputs and the two outputs) sit
    at block row t, the weights and bias rows at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row p of the aggregated-mean block at point t is row 2000·t + p of its array. -/
theorem blk1_0 (c : Dev nD) (t : Fin cfg1.N) (p : Fin 2000) (k : Fin 128) (r : Fin 50000) (hr : r.val = 2000 * t.val + p.val) :
    iblk1 V c 0 t (ix2 p k) = V c main_v39 (ix2 r k) := by
  obtain ⟨e0, e1, -⟩ := index_facts1 t
  unfold iblk1
  rw [View.read_apply]
  show V c main_v39 _ = V c main_v39 _
  refine congrArg (V c main_v39) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row p of the hidden block at point t is row 2000·t + p of its array. -/
theorem blk1_1 (c : Dev nD) (t : Fin cfg1.N) (p : Fin 2000) (k : Fin 128) (r : Fin 50000) (hr : r.val = 2000 * t.val + p.val) :
    iblk1 V c 1 t (ix2 p k) = V c main_v26 (ix2 r k) := by
  obtain ⟨-, -, e0, e1, -⟩ := index_facts1 t
  unfold iblk1
  rw [View.read_apply]
  show V c main_v26 _ = V c main_v26 _
  refine congrArg (V c main_v26) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The first weight's block is the weight. -/
theorem blk1_2 (c : Dev nD) (t : Fin cfg1.N) (q : Fin 128) (k : Fin 128) :
    iblk1 V c 2 t (ix2 q k) = V c main_arg5 (ix2 q k) := by
  obtain ⟨-, -, -, -, e0, e1, -⟩ := index_facts1 t
  unfold iblk1
  rw [View.read_apply]
  show V c main_arg5 _ = V c main_arg5 _
  refine congrArg (V c main_arg5) (funext fun a => Fin.ext ?_)
  match a with
  | ⟨0, _⟩ => show win1_2.index t (0 : Fin 2) * 128 + 1 * q.val = q.val; rw [e0]; omega
  | ⟨1, _⟩ => show win1_2.index t (1 : Fin 2) * 128 + 1 * k.val = k.val; rw [e1]; omega

/-- The layer's bias row's block is the bias row. -/
theorem blk1_3 (c : Dev nD) (t : Fin cfg1.N) (q : Fin 128) :
    iblk1 V c 3 t (ix2 (0 : Fin 1) q) = V c main_v40 (ix2 (0 : Fin 1) q) := by
  obtain ⟨-, -, -, -, -, -, e0, e1, -⟩ := index_facts1 t
  unfold iblk1
  rw [View.read_apply]
  show V c main_v40 _ = V c main_v40 _
  refine congrArg (V c main_v40) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- The second weight's block is the weight. -/
theorem blk1_4 (c : Dev nD) (t : Fin cfg1.N) (q : Fin 128) (k : Fin 128) :
    iblk1 V c 4 t (ix2 q k) = V c main_arg7 (ix2 q k) := by
  obtain ⟨-, -, -, -, -, -, -, -, e0, e1, -⟩ := index_facts1 t
  unfold iblk1
  rw [View.read_apply]
  show V c main_arg7 _ = V c main_arg7 _
  refine congrArg (V c main_arg7) (funext fun a => Fin.ext ?_)
  match a with
  | ⟨0, _⟩ => show win1_4.index t (0 : Fin 2) * 128 + 1 * q.val = q.val; rw [e0]; omega
  | ⟨1, _⟩ => show win1_4.index t (1 : Fin 2) * 128 + 1 * k.val = k.val; rw [e1]; omega

/-- The reconstruction weight's block is the weight. -/
theorem blk1_5 (c : Dev nD) (t : Fin cfg1.N) (q : Fin 64) (k : Fin 128) :
    iblk1 V c 5 t (ix2 q k) = V c main_arg8 (ix2 q k) := by
  obtain ⟨-, -, -, -, -, -, -, -, -, -, e0, e1, -⟩ := index_facts1 t
  unfold iblk1
  rw [View.read_apply]
  show V c main_arg8 _ = V c main_arg8 _
  refine congrArg (V c main_arg8) (funext fun a => Fin.ext ?_)
  match a with
  | ⟨0, _⟩ => show win1_5.index t (0 : Fin 2) * 64 + 1 * q.val = q.val; rw [e0]; omega
  | ⟨1, _⟩ => show win1_5.index t (1 : Fin 2) * 128 + 1 * k.val = k.val; rw [e1]; omega

/-- The reconstruction's bias row's block is the bias row. -/
theorem blk1_6 (c : Dev nD) (t : Fin cfg1.N) (q : Fin 64) :
    iblk1 V c 6 t (ix2 (0 : Fin 1) q) = V c main_v41 (ix2 (0 : Fin 1) q) := by
  obtain ⟨-, -, -, -, -, -, -, -, -, -, -, -, e0, e1, -⟩ := index_facts1 t
  unfold iblk1
  rw [View.read_apply]
  show V c main_v41 _ = V c main_v41 _
  refine congrArg (V c main_v41) (funext fun a => Fin.ext ?_)
  match a with
  | ⟨0, _⟩ => show win1_6.index t (0 : Fin 2) * 1 + 1 * 0 = 0; rw [e0]
  | ⟨1, _⟩ => show win1_6.index t (1 : Fin 2) * 64 + 1 * q.val = q.val; rw [e1]; omega

/-- The layer of point t's blocks at (p, q) is the layer of the whole arrays at (2000·t + p, q). -/
theorem lin_blk1 (c : Dev nD) (t : Fin cfg1.N) (p : Fin 2000) (q : Fin 128) (r : Fin 50000) (hr : r.val = 2000 * t.val + p.val) :
    lin (iblk1 V c 0 t) (iblk1 V c 1 t) (iblk1 V c 2 t) (iblk1 V c 4 t) (iblk1 V c 3 t) p q
      = lin (V c main_v39) (V c main_v26) (V c main_arg5) (V c main_arg7) (V c main_v40) r q := by
  unfold lin
  refine congrArg₂ (· + ·) (congrArg₂ (· + ·) ?_ ?_) ?_
  · exact Finset.sum_congr rfl fun k _ => congrArg₂ (· * ·) (blk1_0 V c t p k r hr) (blk1_2 V c t q k)
  · exact blk1_3 V c t q
  · exact Finset.sum_congr rfl fun k _ => congrArg₂ (· * ·) (blk1_1 V c t p k r hr) (blk1_4 V c t q k)

/-- What point t writes back to the first output is rows 2000·t … of the layer of the whole arrays. -/
theorem flushed1_7 (c : Dev nD) (t : Fin cfg1.N) :
    (dat1 V c).flushed 7 t = ((cfg1.win 7).blk t).view.read (Elt Ideal)
      (layer (V c main_v39) (V c main_v26) (V c main_arg5) (V c main_arg7) (V c main_v40)) := by
  show (cfg1.win 7).cut (grid1.coords t) ((dat1 V c).after 7 t) = _
  rw [after1_7]
  unfold out1_7
  rw [View.canon_unit_zero offs_zero]
  simp only [View.ld_unit_zero (S := S2000x128) offs_zero, View.ld_unit_zero (S := S128x128) offs_zero,
    View.ld_unit_zero (S := S1x128) offs_zero]
  obtain ⟨-, -, -, -, -, -, -, -, -, -, -, -, -, -, e0, e1, -⟩ := index_facts1 t
  funext j
  have hj0 : (j 0).val < 2000 := (j 0).isLt
  have hj1 : (j 1).val < 128 := (j 1).isLt
  have hN : cfg1.N = 25 := N_1
  have ht : t.val < cfg1.N := t.isLt
  have hx : (cfg1.win 7).xinj (grid1.coords t) j = ix2 (⟨(j 0).val, hj0⟩ : Fin 2000) (⟨(j 1).val, hj1⟩ : Fin 128) :=
    funext fun a => by match a with | ⟨0, _⟩ => rfl | ⟨1, _⟩ => rfl
  have he : ((cfg1.win 7).blk t).view.emb j
      = ix2 (⟨2000 * t.val + (j 0).val, by omega⟩ : Fin 50000) (⟨(j 1).val, hj1⟩ : Fin 128) :=
    funext fun a => Fin.ext (by
      match a with
      | ⟨0, _⟩ => show win1_7.index t (0 : Fin 2) * 2000 + 1 * (j 0).val = 2000 * t.val + (j 0).val; rw [e0]; omega
      | ⟨1, _⟩ => show win1_7.index t (1 : Fin 2) * 128 + 1 * (j 1).val = (j 1).val; rw [e1]; omega)
  show k1_pay1 (iblk1 V c 0 t) (iblk1 V c 1 t) (iblk1 V c 2 t) (iblk1 V c 4 t) (iblk1 V c 3 t)
      ((cfg1.win 7).xinj (grid1.coords t) j)
    = layer (V c main_v39) (V c main_v26) (V c main_arg5) (V c main_arg7) (V c main_v40)
      (((cfg1.win 7).blk t).view.emb j)
  rw [hx, he]
  refine (pay1_apply (iblk1 V c 0 t) (iblk1 V c 1 t) (iblk1 V c 2 t) (iblk1 V c 4 t) (iblk1 V c 3 t) _ _).trans ?_
  exact lin_blk1 V c t _ _ _ rfl

/-- What point t writes back to the second output is rows 2000·t … of the projection of the layer of the whole arrays. -/
theorem flushed1_8 (c : Dev nD) (t : Fin cfg1.N) :
    (dat1 V c).flushed 8 t = ((cfg1.win 8).blk t).view.read (Elt Ideal)
      (projLayer (layer (V c main_v39) (V c main_v26) (V c main_arg5) (V c main_arg7) (V c main_v40))
        (V c main_arg8) (V c main_v41)) := by
  show (cfg1.win 8).cut (grid1.coords t) ((dat1 V c).after 8 t) = _
  rw [after1_8]
  unfold out1_8
  rw [View.canon_unit_zero offs_zero]
  simp only [View.ld_unit_zero (S := S2000x128) offs_zero, View.ld_unit_zero (S := S128x128) offs_zero,
    View.ld_unit_zero (S := S1x128) offs_zero, View.ld_unit_zero (S := S64x128) offs_zero,
    View.ld_unit_zero (S := S1x64) offs_zero]
  obtain ⟨-, -, -, -, -, -, -, -, -, -, -, -, -, -, -, -, e0, e1⟩ := index_facts1 t
  funext j
  have hj0 : (j 0).val < 2000 := (j 0).isLt
  have hj1 : (j 1).val < 64 := (j 1).isLt
  have hN : cfg1.N = 25 := N_1
  have ht : t.val < cfg1.N := t.isLt
  have hx : (cfg1.win 8).xinj (grid1.coords t) j = ix2 (⟨(j 0).val, hj0⟩ : Fin 2000) (⟨(j 1).val, hj1⟩ : Fin 64) :=
    funext fun a => by match a with | ⟨0, _⟩ => rfl | ⟨1, _⟩ => rfl
  have he : ((cfg1.win 8).blk t).view.emb j
      = ix2 (⟨2000 * t.val + (j 0).val, by omega⟩ : Fin 50000) (⟨(j 1).val, hj1⟩ : Fin 64) :=
    funext fun a => Fin.ext (by
      match a with
      | ⟨0, _⟩ => show win1_8.index t (0 : Fin 2) * 2000 + 1 * (j 0).val = 2000 * t.val + (j 0).val; rw [e0]; omega
      | ⟨1, _⟩ => show win1_8.index t (1 : Fin 2) * 64 + 1 * (j 1).val = (j 1).val; rw [e1]; omega)
  show k1_pay2 (iblk1 V c 0 t) (iblk1 V c 1 t) (iblk1 V c 2 t) (iblk1 V c 4 t) (iblk1 V c 3 t) (iblk1 V c 5 t) (iblk1 V c 6 t)
      ((cfg1.win 8).xinj (grid1.coords t) j)
    = projLayer (layer (V c main_v39) (V c main_v26) (V c main_arg5) (V c main_arg7) (V c main_v40))
        (V c main_arg8) (V c main_v41) (((cfg1.win 8).blk t).view.emb j)
  rw [hx, he]
  refine (pay2_apply (iblk1 V c 0 t) (iblk1 V c 1 t) (iblk1 V c 2 t) (iblk1 V c 4 t) (iblk1 V c 3 t) (iblk1 V c 5 t)
    (iblk1 V c 6 t) _ _).trans ?_
  unfold projLayer proj layer
  refine congrArg₂ (· + ·) ?_ ?_
  · exact Finset.sum_congr rfl fun k _ => congrArg₂ (· * ·) (lin_blk1 V c t _ k _ rfl) (blk1_5 V c t _ k)
  · exact blk1_6 V c t _

/-- An index of the first output array is in point t's block iff each coordinate is in the block's range on its axis. -/
theorem mem_blk1_7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v42_0).slice (win1_7.rect t)).set ↔ _
  rw [View.set_slice_whole, Rect.mem_set_unit]
  exact Iff.rfl

/-- The same for the second output array. -/
theorem mem_blk1_8 (t : Fin cfg1.N) (i : S50000x64.Idx) :
    i ∈ ((cfg1.win 8).blk t).view.set ↔ ∀ a : Fin 2, win1_8.index t a * S2000x64.size a ≤ (i a).val
      ∧ (i a).val < win1_8.index t a * S2000x64.size a + S2000x64.size a := by
  show i ∈ ((View.whole main_v42_1).slice (win1_8.rect t)).set ↔ _
  rw [View.set_slice_whole, Rect.mem_set_unit]
  exact Iff.rfl

/-- Row r of the first output is written by point r / 2000. -/
theorem cover1_7' (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, -, -, e0, e1, -⟩ := index_facts1 t
  refine ⟨t, flush1_7 t, ?_⟩
  rw [mem_blk1_7]
  intro a
  match a with
  | ⟨0, _⟩ =>
    show win1_7.index t (0 : Fin 2) * 2000 ≤ (i 0).val ∧ (i 0).val < win1_7.index t (0 : Fin 2) * 2000 + 2000
    rw [e0, ht]; omega
  | ⟨1, _⟩ =>
    show win1_7.index t (1 : Fin 2) * 128 ≤ (i 1).val ∧ (i 1).val < win1_7.index t (1 : Fin 2) * 128 + 128
    rw [e1]; omega

/-- Row r of the second output is written by point r / 2000. -/
theorem cover1_8' (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, -, -, -, -, e0, e1⟩ := index_facts1 t
  refine ⟨t, flush1_8 t, ?_⟩
  rw [mem_blk1_8]
  intro a
  match a with
  | ⟨0, _⟩ =>
    show win1_8.index t (0 : Fin 2) * 2000 ≤ (i 0).val ∧ (i 0).val < win1_8.index t (0 : Fin 2) * 2000 + 2000
    rw [e0, ht]; omega
  | ⟨1, _⟩ =>
    show win1_8.index t (1 : Fin 2) * 64 ≤ (i 1).val ∧ (i 1).val < win1_8.index t (1 : Fin 2) * 64 + 64
    rw [e1]; omega

/-- The first output array after the region: the layer of the entry arrays. -/
theorem embed_final (c : Dev nD) :
    (dat1 V c).arrAt 7 cfg1.N
      = layer (V c main_v39) (V c main_v26) (V c main_arg5) (V c main_arg7) (V c main_v40) :=
  (dat1 V c).arrAt_eq_of_cover 7 _ (fun t _ => flushed1_7 V c t) cover1_7'

/-- The second output array after the region: the projection of that layer. -/
theorem recon_final (c : Dev nD) :
    (dat1 V c).arrAt 8 cfg1.N
      = projLayer (layer (V c main_v39) (V c main_v26) (V c main_arg5) (V c main_arg7) (V c main_v40))
          (V c main_arg8) (V c main_v41) :=
  (dat1 V c).arrAt_eq_of_cover 8 _ (fun t _ => flushed1_8 V c t) cover1_8'

end Cert.KernelIdeal.Region1

end
-- ==== Proof.LibRecipQuotient.lean ====
/-
  The product with a reciprocal is the quotient, off a zero divisor.

  Over the extended reals the quotient `p / M` by a nonzero `M` is `p · M⁻¹`, and the reciprocal `1 / M` — the float word
  1.0 divided by `M` — is `1 · M⁻¹ = M⁻¹`.  So `p · (1 / M) = p / M` for every `p`, finite or not, whenever `M ≠ 0`
  (an infinite `M` included: its inverse is 0 on both sides).
-/
import Idealize.ShloMosaic.PureOps.Ideal.Laws
import Idealize.ShloMosaic.Lib.IdealHost

noncomputable section

namespace Cert.Lib.RecipQuotient

open Idealize.ShloMosaic

/-- `p · (1.0 / M) = p / M` when `M ≠ 0`. -/
theorem mul_recip_eq_div (p M : EReal) (hM : M ≠ 0) :
    p * Ideal.div (Ideal.ofBits .f32 0x3F800000#32) M = Ideal.div p M := by
  unfold Ideal.div
  rw [if_neg hM, if_neg hM, Ideal.ofBits_one_f32, one_mul]

end Cert.Lib.RecipQuotient

end
-- ==== Proof.LibColumnScale.lean ====
/-
  A per-row scalar spread over the columns of a matrix, and scaling by a reciprocal against dividing.

  A vector [n] broadcast to a column [n, 1] and then across to [n, w] reads, at (p, k), the vector's entry p.  So
  multiplying an [n, w] array entrywise by the spread-out reciprocals 1.0 / M is dividing it entrywise by the spread-out
  M, wherever no entry of M is zero: over the extended reals  g · (1 / M) = g / M  for every g when M ≠ 0.
-/
import Idealize.ShloMosaic.Lib.ValueIdx
import Idealize.ShloMosaic.Lib.Pipeline.Value
import Idealize.ShloMosaic.PureOps.Ideal.Laws
import proofs.«174159_j26508538150912_2_alg».proof.Proof.LibRecipQuotient

noncomputable section

namespace Cert.Lib.ColumnScale

open Idealize.ShloMosaic Idealize.ShloMosaic.ValueIdx

/-- A vector made a column and spread across w columns, read at (p, k), is the vector at p. -/
theorem spread_apply {α : Type} {n w : Nat} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, w]⟩ ![0, 1]) (p : Fin n) (k : Fin w) :
    broadcastInDim ⟨2, ![n, w]⟩ ![0, 1] h2 (broadcastInDim ⟨2, ![n, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if n = 1 then 0 else p.val
      split
      · have := p.isLt; omega
      · rfl
    | ⟨1, _⟩ => show 0 = if (1 : Nat) = 1 then 0 else k.val; rw [if_pos rfl]
  · match a with
    | ⟨0, _⟩ =>
      show p.val = if n = 1 then 0 else p.val
      split
      · have := p.isLt; omega
      · rfl

/-- Scaling row p by the reciprocal 1.0 / M p is dividing it by M p, when M p ≠ 0. -/
theorem scale_recip_eq_div {n w : Nat} (g : FVec Ideal ⟨2, ![n, w]⟩ .f32) (one M : FVec Ideal ⟨1, ![n]⟩ .f32)
    (hone : ∀ i, one i = Ideal.ofBits .f32 0x3F800000#32)
    (h1 : (⟨1, ![n]⟩ : Shape).BroadcastsInDim ⟨2, ![n, 1]⟩ ![0])
    (h2 : (⟨2, ![n, 1]⟩ : Shape).BroadcastsInDim ⟨2, ![n, w]⟩ ![0, 1]) (p : Fin n) (k : Fin w)
    (hM : M (ix1 p) ≠ 0) :
    mulf g (broadcastInDim ⟨2, ![n, w]⟩ ![0, 1] h2 (broadcastInDim ⟨2, ![n, 1]⟩ ![0] h1 (Host.divf (F := Ideal) one M))) (ix2 p k)
      = Host.divf (F := Ideal) g (broadcastInDim ⟨2, ![n, w]⟩ ![0, 1] h2 (broadcastInDim ⟨2, ![n, 1]⟩ ![0] h1 M)) (ix2 p k) := by
  show g (ix2 p k) * _ = Ideal.div (g (ix2 p k)) _
  rw [spread_apply, spread_apply]
  show g (ix2 p k) * Ideal.div (one (ix1 p)) (M (ix1 p)) = _
  rw [hone]
  exact Cert.Lib.RecipQuotient.mul_recip_eq_div _ _ hM

end Cert.Lib.ColumnScale

end
-- ==== Proof.RefBridge.lean ====
/-
  The reference's two results, written the way the kernel program computes them.

  The kernel program scales each aggregated sum by the reciprocal 1 / max(deg, 1) where the reference divides by
  max(deg, 1); the clamped degree is at least 1, so never zero, and over the extended reals g · (1 / M) = g / M then.
  Everything else is the same arithmetic in the same order: each layer is  mean · Wlᵀ + b + x · Wrᵀ  read at an entry
  as two sums over the input features with the bias between them, the hidden layer is its maximum with zero, and the
  reconstruction is one more product plus its bias.  The edge aggregation (a gather of source rows scattered-added into
  destination rows) is applied to equal arrays on the two sides, so it is carried as one function and never opened.
-/
import proofs.«174159_j26508538150912_2_alg».proof.Proof.Gen.ReferenceIdeal.Read
import proofs.«174159_j26508538150912_2_alg».proof.Proof.LibLinearLayer
import proofs.«174159_j26508538150912_2_alg».proof.Proof.LibColumnScale
import Idealize.ShloMosaic.Lib.ValueLayout

noncomputable section

namespace Cert.ReferenceIdeal.Bridge

open Cert.ReferenceIdeal Cert.ReferenceIdeal.Gen Cert.ReferenceIdeal.Read Idealize.ShloMosaic
open Idealize.ShloMosaic.ValueIdx Cert.Lib.LinearLayer

theorem casts_S128_S1x128 : S128.ShapeCasts S1x128 := by decide
theorem casts_S64_S1x64 : S64.ShapeCasts S1x64 := by decide

/-- The reciprocal of the clamped in-degree, 1.0 / max(deg, 1), per node. -/
def recipDeg (x1 : IVec S2x800000 32) : FVec Ideal S50000 .f32 :=
  Host.divf (F := Ideal) (φ := .f32) (val_main_v18 (F := Ideal)) (val_main_v19 (F := Ideal) x1)

/-- A per-node scalar spread over the 64 columns. -/
def spread64 (v : FVec Ideal S50000 .f32) : FVec Ideal S50000x64 .f32 :=
  broadcastInDim S50000x64 ![0, 1] bcast_S50000x1_S50000x64_0_1 (broadcastInDim S50000x1 ![0] bcast_S50000_S50000x1_0 v)

/-- A per-node scalar spread over the 128 columns. -/
def spread128 (v : FVec Ideal S50000 .f32) : FVec Ideal S50000x128 .f32 :=
  broadcastInDim S50000x128 ![0, 1] bcast_S50000x1_S50000x128_0_1 (broadcastInDim S50000x1 ![0] bcast_S50000_S50000x1_0 v)

/-- The first aggregated mean as a product with the reciprocal degree. -/
def mean1 (x0 : FVec Ideal S50000x64 .f32) (x1 : IVec S2x800000 32) : FVec Ideal S50000x64 .f32 :=
  mulf (F := Ideal) (φ := .f32) (val_main_v13 (F := Ideal) x0 x1) (spread64 (recipDeg x1))

/-- The hidden layer from that mean. -/
def hiddenK (x0 : FVec Ideal S50000x64 .f32) (x1 : IVec S2x800000 32) (x2 : FVec Ideal S128x64 .f32)
    (x3 : FVec Ideal S128 .f32) (x4 : FVec Ideal S128x64 .f32) : FVec Ideal S50000x128 .f32 :=
  reluLayer (mean1 x0 x1) x0 x2 x4 (shapeCast S1x128 x3 casts_S128_S1x128)

/-- The edge aggregation of a [50000, 128] array: source rows gathered, scattered-added into destination rows. -/
def aggr2 (x1 : IVec S2x800000 32) (h : FVec Ideal S50000x128 .f32) : FVec Ideal S50000x128 .f32 :=
  Host.scatterAdd (F := Ideal) (φ := .f32) scatter_S50000x128_S800000x1_S800000x128_1_0_0_1 (val_main_v39 (F := Ideal))
    (val_main_v40 (F := Ideal) x1)
    (Host.gather gather_S50000x128_S800000x1_S800000x128_1_0_n_n_0_1_1128 h (val_main_v37 (F := Ideal) x1))

/-- The second aggregated mean as a product with the reciprocal degree. -/
def mean2 (x1 : IVec S2x800000 32) (h : FVec Ideal S50000x128 .f32) : FVec Ideal S50000x128 .f32 :=
  mulf (F := Ideal) (φ := .f32) (aggr2 x1 h) (spread128 (recipDeg x1))

/-- The embedding from the hidden layer. -/
def embedK (x1 : IVec S2x800000 32) (h : FVec Ideal S50000x128 .f32) (x5 : FVec Ideal S128x128 .f32)
    (x6 : FVec Ideal S128 .f32) (x7 : FVec Ideal S128x128 .f32) : FVec Ideal S50000x128 .f32 :=
  layer (mean2 x1 h) h x5 x7 (shapeCast S1x128 x6 casts_S128_S1x128)

/-- The reconstruction from the embedding. -/
def reconK (z : FVec Ideal S50000x128 .f32) (x8 : FVec Ideal S64x128 .f32) (x9 : FVec Ideal S64 .f32) :
    FVec Ideal S50000x64 .f32 :=
  projLayer z x8 (shapeCast S1x64 x9 casts_S64_S1x64)

end Cert.ReferenceIdeal.Bridge

end
-- ==== Proof.KernelHost.lean ====
/-
  What the kernel program's host operations leave in the buffers the two pallas regions read, in terms of the launch
  contents of the ten arguments.

  Before the first region: the in-degree (ones scattered-added at the destination nodes), its clamp at 1 and reciprocal,
  the source rows of the node features gathered and scattered-added at the destination nodes, that sum scaled by the
  reciprocal degree, and the first bias as a row.  Between the regions: the same aggregation of the first region's
  output, scaled by the same reciprocal degree, and the other two biases as rows.  Each is the same operation on the same
  operands as in the reference program, so it is stated with the reference's own stage functions; the weights and the
  node features reach the regions as launched.
-/
import proofs.«174159_j26508538150912_2_alg».proof.Proof.Gen.KernelIdeal.Frame
import proofs.«174159_j26508538150912_2_alg».proof.Proof.RefBridge
import Idealize.ShloMosaic.Lib.StableHlo.Run

set_option maxRecDepth 16384
set_option maxHeartbeats 4000000

noncomputable section

namespace Cert.KernelIdeal.HostRead

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## On entry to the first region -/

/-- The scaled first aggregation. -/
theorem entry_mean1 (c : Dev nD) :
    V1 (F := Ideal) m ρ c main_v24 = Cert.ReferenceIdeal.Bridge.mean1 (m ((c : Thread nD τ).loc main_arg0)) (m ((c : Thread nD τ).loc main_arg1)) := by
  show StableHlo.after hostOps0 (W0 m ρ c) (Proc.devRef .tc main_v24) = _
  after_results_simp
  rfl

/-- The first bias as a row. -/
theorem entry_bias1 (c : Dev nD) :
    V1 (F := Ideal) m ρ c main_v25
      = shapeCast Cert.ReferenceIdeal.S1x128 (m ((c : Thread nD τ).loc main_arg3)) Cert.ReferenceIdeal.Bridge.casts_S128_S1x128 := by
  show StableHlo.after hostOps0 (W0 m ρ c) (Proc.devRef .tc main_v25) = _
  after_results_simp
  rfl

/-- The node features, untouched. -/
theorem entry_arg0 (c : Dev nD) : V1 (F := Ideal) m ρ c main_arg0 = (m ((c : Thread nD τ).loc main_arg0)) := by
  show StableHlo.after hostOps0 (W0 m ρ c) (Proc.devRef .tc main_arg0) = _
  after_results_simp

/-- The first layer's left weight, untouched. -/
theorem entry_arg2 (c : Dev nD) : V1 (F := Ideal) m ρ c main_arg2 = (m ((c : Thread nD τ).loc main_arg2)) := by
  show StableHlo.after hostOps0 (W0 m ρ c) (Proc.devRef .tc main_arg2) = _
  after_results_simp

/-- The first layer's right weight, untouched. -/
theorem entry_arg4 (c : Dev nD) : V1 (F := Ideal) m ρ c main_arg4 = (m ((c : Thread nD τ).loc main_arg4)) := by
  show StableHlo.after hostOps0 (W0 m ρ c) (Proc.devRef .tc main_arg4) = _
  after_results_simp

/-! ## At the first region's exit: what it did not write is as it was on entry -/

/-- The source nodes (row 0 of the edge list). -/
theorem exit_src (c : Dev nD) :
    W2 (F := Ideal) m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp
    rfl)

/-- The destination nodes (row 1 of the edge list). -/
theorem exit_dst (c : Dev nD) :
    W2 (F := Ideal) m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp
    rfl)

/-- The reciprocal of the clamped in-degree. -/
theorem exit_recipDeg (c : Dev nD) :
    W2 (F := Ideal) m ρ c (Proc.devRef .tc main_v11) = Cert.ReferenceIdeal.Bridge.recipDeg (m ((c : Thread nD τ).loc main_arg1)) :=
  (W2_of_ne m ρ c main_v11 (by decide)).trans (by
    show StableHlo.after hostOps0 (W0 m ρ c) (Proc.devRef .tc main_v11) = _
    after_results_simp
    rfl)

/-- An argument the first region does not stage is as launched. -/
theorem exit_arg5 (c : Dev nD) : W2 (F := Ideal) m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp)
theorem exit_arg6 (c : Dev nD) : W2 (F := Ideal) m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp)
theorem exit_arg7 (c : Dev nD) : W2 (F := Ideal) m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp)
theorem exit_arg8 (c : Dev nD) : W2 (F := Ideal) m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp)
theorem exit_arg9 (c : Dev nD) : W2 (F := Ideal) m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp)

/-! ## On entry to the second region -/

/-- The hidden array is what the first region's write-backs left. -/
theorem entry_hidden (c : Dev nD) :
    V3 (F := Ideal) m ρ c main_v26 = (dat0 (V1 m ρ) c).arrAt 5 cfg0.N := by
  show StableHlo.after hostOps1 (W2 m ρ c) (Proc.devRef .tc main_v26) = _
  after_results_simp
  exact W2_arr m ρ c 5

/-- The scaled second aggregation, of the hidden array. -/
theorem entry_mean2 (c : Dev nD) :
    V3 (F := Ideal) m ρ c main_v39
      = Cert.ReferenceIdeal.Bridge.mean2 (m ((c : Thread nD τ).loc main_arg1)) ((dat0 (V1 m ρ) c).arrAt 5 cfg0.N) := by
  show StableHlo.after hostOps1 (W2 m ρ c) (Proc.devRef .tc main_v39) = _
  after_results_simp
  rw [exit_src, exit_dst, exit_recipDeg, W2_arr m ρ c 5]
  rfl

/-- The second bias as a row. -/
theorem entry_bias2 (c : Dev nD) :
    V3 (F := Ideal) m ρ c main_v40
      = shapeCast Cert.ReferenceIdeal.S1x128 (m ((c : Thread nD τ).loc main_arg6)) Cert.ReferenceIdeal.Bridge.casts_S128_S1x128 := by
  show StableHlo.after hostOps1 (W2 m ρ c) (Proc.devRef .tc main_v40) = _
  after_results_simp
  rw [exit_arg6]
  rfl

/-- The reconstruction's bias as a row. -/
theorem entry_bias3 (c : Dev nD) :
    V3 (F := Ideal) m ρ c main_v41
      = shapeCast Cert.ReferenceIdeal.S1x64 (m ((c : Thread nD τ).loc main_arg9)) Cert.ReferenceIdeal.Bridge.casts_S64_S1x64 := by
  show StableHlo.after hostOps1 (W2 m ρ c) (Proc.devRef .tc main_v41) = _
  after_results_simp
  rw [exit_arg9]
  rfl

/-- The second layer's left weight, untouched. -/
theorem entry_arg5 (c : Dev nD) : V3 (F := Ideal) m ρ c main_arg5 = (m ((c : Thread nD τ).loc main_arg5)) := by
  show StableHlo.after hostOps1 (W2 m ρ c) (Proc.devRef .tc main_arg5) = _
  after_results_simp
  exact exit_arg5 m ρ c

/-- The second layer's right weight, untouched. -/
theorem entry_arg7 (c : Dev nD) : V3 (F := Ideal) m ρ c main_arg7 = (m ((c : Thread nD τ).loc main_arg7)) := by
  show StableHlo.after hostOps1 (W2 m ρ c) (Proc.devRef .tc main_arg7) = _
  after_results_simp
  exact exit_arg7 m ρ c

/-- The reconstruction weight, untouched. -/
theorem entry_arg8 (c : Dev nD) : V3 (F := Ideal) m ρ c main_arg8 = (m ((c : Thread nD τ).loc main_arg8)) := by
  show StableHlo.after hostOps1 (W2 m ρ c) (Proc.devRef .tc main_arg8) = _
  after_results_simp
  exact exit_arg8 m ρ c

end Cert.KernelIdeal.HostRead

end
-- ==== Proof.RefEqual.lean ====
/-
  The reference's results are the kernel-shaped terms.

  At an entry (p, q) both sides are sums over the input features of products of the same operands; the only difference
  is  g · (1 / M)  against  g / M  in each aggregated mean, with M = max(deg, 1) ≥ 1.
-/
import proofs.«174159_j26508538150912_2_alg».proof.Proof.RefBridge

noncomputable section

namespace Cert.ReferenceIdeal.Bridge

open Cert.ReferenceIdeal Cert.ReferenceIdeal.Gen Cert.ReferenceIdeal.Read Idealize.ShloMosaic
open Idealize.ShloMosaic.ValueIdx Cert.Lib.LinearLayer

/-- The all-ones vector reads the f32 word 1.0 everywhere. -/
theorem ones_apply (i : S50000.Idx) : val_main_v18 (F := Ideal) i = Ideal.ofBits .f32 0x3F800000#32 :=
  (val_main_v18_apply i).trans (val_main_cst_3_apply _)

/-- The clamped in-degree is never zero: it is at least the f32 word 1.0, which is 1. -/
theorem clampDeg_ne_zero (x1 : IVec S2x800000 32) (i : S50000.Idx) : val_main_v19 (F := Ideal) x1 i ≠ 0 := by
  rw [val_main_v19_apply, ones_apply]
  generalize val_main_v17 (F := Ideal) x1 i = d
  show max d (Ideal.ofBits .f32 0x3F800000#32) ≠ 0
  rw [Ideal.ofBits_one_f32]
  exact ne_of_gt (lt_of_lt_of_le zero_lt_one (le_max_right d 1))

/-- The reference computes the clamped degree a second time, by the same operations on the same operand. -/
theorem clampDeg_twice (x1 : IVec S2x800000 32) : val_main_v47 (F := Ideal) x1 = val_main_v19 (F := Ideal) x1 := by
  unfold val_main_v47 val_main_v19 val_main_v45 val_main_v17 val_main_v46 val_main_v18 val_main_v44 val_main_v16
    val_main_v43 val_main_v15 val_main_v42 val_main_v14 val_main_cst_9 val_main_cst_3 val_main_cst_8 val_main_cst_2
    val_main_cst_7 val_main_cst_1
  rfl

/-- Scaling the first aggregation by the reciprocal degree is dividing it by the clamped degree. -/
theorem mean1_eq (x0 : FVec Ideal S50000x64 .f32) (x1 : IVec S2x800000 32) :
    mean1 x0 x1 = val_main_v22 (F := Ideal) x0 x1 := by
  funext i
  obtain ⟨p, k, rfl⟩ : ∃ (p : Fin 50000) (k : Fin 64), i = ix2 p k := ⟨i 0, i 1, eq_ix2 i⟩
  unfold mean1 spread64 recipDeg val_main_v22 val_main_v21 val_main_v20
  generalize val_main_v13 (F := Ideal) x0 x1 = g
  exact Cert.Lib.ColumnScale.scale_recip_eq_div g (val_main_v18 (F := Ideal)) (val_main_v19 (F := Ideal) x1) ones_apply
    bcast_S50000_S50000x1_0 bcast_S50000x1_S50000x64_0_1 p k (clampDeg_ne_zero x1 _)

/-- The same for any [50000, 128] array against the reference's second division. -/
theorem mean2_eq (x1 : IVec S2x800000 32) (g : FVec Ideal S50000x128 .f32) :
    mulf (F := Ideal) (φ := .f32) g (spread128 (recipDeg x1)) = Host.divf (F := Ideal) (φ := .f32) g (val_main_v49 (F := Ideal) x1) := by
  funext i
  obtain ⟨p, k, rfl⟩ : ∃ (p : Fin 50000) (k : Fin 128), i = ix2 p k := ⟨i 0, i 1, eq_ix2 i⟩
  unfold spread128 recipDeg val_main_v49 val_main_v48
  rw [clampDeg_twice]
  exact Cert.Lib.ColumnScale.scale_recip_eq_div g (val_main_v18 (F := Ideal)) (val_main_v19 (F := Ideal) x1) ones_apply
    bcast_S50000_S50000x1_0 bcast_S50000x1_S50000x128_0_1 p k (clampDeg_ne_zero x1 _)

/-- A rank-2 index with coordinates a, b is `ix2 a b`. -/
theorem pair_eq {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- A rank-1 index with coordinate a is `ix1 a`. -/
theorem single_eq {n : Nat} (j : (⟨1, ![n]⟩ : Shape).Idx) (a : Fin n) (h : (j 0).val = a.val) : j = ix1 a :=
  funext fun d => Fin.ext (by match d with | ⟨0, _⟩ => exact h)

/-- The hidden layer: relu of the first layer, entry by entry. -/
theorem hidden_eq (x0 : FVec Ideal S50000x64 .f32) (x1 : IVec S2x800000 32) (x2 : FVec Ideal S128x64 .f32)
    (x3 : FVec Ideal S128 .f32) (x4 : FVec Ideal S128x64 .f32) :
    hiddenK x0 x1 x2 x3 x4 = val_main_v31 (F := Ideal) x0 x1 x2 x3 x4 := by
  unfold hiddenK
  rw [mean1_eq]
  funext i
  obtain ⟨p, q, rfl⟩ : ∃ (p : Fin 50000) (q : Fin 128), i = ix2 p q := ⟨i 0, i 1, eq_ix2 i⟩
  rw [val_main_v31_apply, val_main_v30_apply, val_main_v27_apply, val_main_v24_apply, val_main_v29_apply,
    val_main_v26_apply, val_main_v25_apply, val_main_call0_v0_apply, val_main_call0_cst_apply]
  generalize val_main_v22 (F := Ideal) x0 x1 = mean
  simp only [Ideal.maximumf_def, Ideal.addf_def, Ideal.ofBits_def]
  unfold reluLayer lin
  refine congrArg₂ max (congrArg₂ (· + ·) (congrArg₂ (· + ·) ?_ ?_) ?_) rfl
  · exact Finset.sum_congr rfl fun k _ => congrArg₂ (· * ·)
      (congrArg mean (pair_eq _ p k rfl rfl).symm)
      ((congrArg (val_main_v23 (F := Ideal) x2) (pair_eq _ k q rfl rfl)).trans
        (transpose_ix2_apply x2 transposes_S128x64_S64x128_1_0 k q)).symm
  · exact (shapeCast_a_1a_apply x3 casts_S128_S1x128 0 q).trans (congrArg x3 (single_eq _ q rfl).symm)
  · exact Finset.sum_congr rfl fun k _ => congrArg₂ (· * ·)
      (congrArg x0 (pair_eq _ p k rfl rfl).symm)
      ((congrArg (val_main_v28 (F := Ideal) x4) (pair_eq _ k q rfl rfl)).trans
        (transpose_ix2_apply x4 transposes_S128x64_S64x128_1_0 k q)).symm

/-- The reference's second aggregation is the edge aggregation of its hidden layer. -/
theorem aggr2_eq (x0 : FVec Ideal S50000x64 .f32) (x1 : IVec S2x800000 32) (x2 : FVec Ideal S128x64 .f32)
    (x3 : FVec Ideal S128 .f32) (x4 : FVec Ideal S128x64 .f32) :
    aggr2 x1 (val_main_v31 (F := Ideal) x0 x1 x2 x3 x4) = val_main_v41 (F := Ideal) x0 x1 x2 x3 x4 := by
  unfold aggr2 val_main_v41 val_main_v38
  rfl

/-- The embedding: the second layer, entry by entry. -/
theorem embed_eq (x0 : FVec Ideal S50000x64 .f32) (x1 : IVec S2x800000 32) (x2 : FVec Ideal S128x64 .f32)
    (x3 : FVec Ideal S128 .f32) (x4 : FVec Ideal S128x64 .f32) (x5 : FVec Ideal S128x128 .f32)
    (x6 : FVec Ideal S128 .f32) (x7 : FVec Ideal S128x128 .f32) :
    embedK x1 (val_main_v31 (F := Ideal) x0 x1 x2 x3 x4) x5 x6 x7
      = val_main_v58 (F := Ideal) x0 x1 x2 x3 x4 x5 x6 x7 := by
  have hm : mean2 x1 (val_main_v31 (F := Ideal) x0 x1 x2 x3 x4) = val_main_v50 (F := Ideal) x0 x1 x2 x3 x4 := by
    unfold mean2 val_main_v50
    rw [mean2_eq, aggr2_eq]
  unfold embedK
  rw [hm]
  funext i
  obtain ⟨p, q, rfl⟩ : ∃ (p : Fin 50000) (q : Fin 128), i = ix2 p q := ⟨i 0, i 1, eq_ix2 i⟩
  rw [val_main_v58_apply, val_main_v55_apply, val_main_v52_apply, val_main_v57_apply, val_main_v54_apply,
    val_main_v53_apply]
  generalize val_main_v50 (F := Ideal) x0 x1 x2 x3 x4 = mean
  generalize val_main_v31 (F := Ideal) x0 x1 x2 x3 x4 = h
  simp only [Ideal.addf_def]
  unfold layer lin
  refine congrArg₂ (· + ·) (congrArg₂ (· + ·) ?_ ?_) ?_
  · exact Finset.sum_congr rfl fun k _ => congrArg₂ (· * ·)
      (congrArg mean (pair_eq _ p k rfl rfl).symm)
      ((congrArg (val_main_v51 (F := Ideal) x5) (pair_eq _ k q rfl rfl)).trans
        (transpose_ix2_apply x5 transposes_S128x128_S128x128_1_0 k q)).symm
  · exact (shapeCast_a_1a_apply x6 casts_S128_S1x128 0 q).trans (congrArg x6 (single_eq _ q rfl).symm)
  · exact Finset.sum_congr rfl fun k _ => congrArg₂ (· * ·)
      (congrArg h (pair_eq _ p k rfl rfl).symm)
      ((congrArg (val_main_v56 (F := Ideal) x7) (pair_eq _ k q rfl rfl)).trans
        (transpose_ix2_apply x7 transposes_S128x128_S128x128_1_0 k q)).symm

/-- The reconstruction: the embedding projected, entry by entry. -/
theorem recon_eq (x0 : FVec Ideal S50000x64 .f32) (x1 : IVec S2x800000 32) (x2 : FVec Ideal S128x64 .f32)
    (x3 : FVec Ideal S128 .f32) (x4 : FVec Ideal S128x64 .f32) (x5 : FVec Ideal S128x128 .f32)
    (x6 : FVec Ideal S128 .f32) (x7 : FVec Ideal S128x128 .f32) (x8 : FVec Ideal S64x128 .f32) (x9 : FVec Ideal S64 .f32) :
    reconK (val_main_v58 (F := Ideal) x0 x1 x2 x3 x4 x5 x6 x7) x8 x9
      = val_main_v63 (F := Ideal) x0 x1 x2 x3 x4 x5 x6 x7 x8 x9 := by
  funext i
  obtain ⟨p, q, rfl⟩ : ∃ (p : Fin 50000) (q : Fin 64), i = ix2 p q := ⟨i 0, i 1, eq_ix2 i⟩
  rw [val_main_v63_apply, val_main_v60_apply, val_main_v62_apply, val_main_v61_apply]
  generalize val_main_v58 (F := Ideal) x0 x1 x2 x3 x4 x5 x6 x7 = z
  simp only [Ideal.addf_def]
  unfold reconK projLayer proj
  refine congrArg₂ (· + ·) ?_ ?_
  · exact Finset.sum_congr rfl fun k _ => congrArg₂ (· * ·)
      (congrArg z (pair_eq _ p k rfl rfl).symm)
      ((congrArg (val_main_v59 (F := Ideal) x8) (pair_eq _ k q rfl rfl)).trans
        (transpose_ix2_apply x8 transposes_S64x128_S128x64_1_0 k q)).symm
  · exact (shapeCast_a_1a_apply x9 casts_S64_S1x64 0 q).trans (congrArg x9 (single_eq _ q rfl).symm)

end Cert.ReferenceIdeal.Bridge

end
-- ==== Proof.KernelValue.lean ====
/-
  The kernel program's two results are the reference's two stage functions of the launch arguments.

  The hidden array the first region leaves is relu of the first layer of the scaled first aggregation; the second
  region's first output is the second layer of the scaled aggregation of that hidden array, and its second output is
  that embedding projected.  Each scaled aggregation equals the reference's quotient (the clamped degree is never
  zero), and everything else is the reference's own arithmetic.
-/
import proofs.«174159_j26508538150912_2_alg».proof.Proof.HiddenRegion
import proofs.«174159_j26508538150912_2_alg».proof.Proof.EmbedRegion
import proofs.«174159_j26508538150912_2_alg».proof.Proof.KernelHost
import proofs.«174159_j26508538150912_2_alg».proof.Proof.RefEqual

set_option maxRecDepth 16384

noncomputable section

namespace Cert.KernelIdeal.Results

open Cert.KernelIdeal Cert.KernelIdeal.Gen Idealize.ShloMosaic Idealize.ShloMosaic.TcCoe Idealize.SL.Sem
open Cert.Lib.LinearLayer

variable (m : (ℓ : Loc nD τ sig) → Buf (Elt Ideal) ℓ) (ρ : Dev nD → PrngReg)

/-- The hidden array the first region leaves is the reference's hidden layer of the launch arguments. -/
theorem hidden_result (c : Dev nD) :
    (dat0 (V1 (F := Ideal) m ρ) c).arrAt 5 cfg0.N
      = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.KernelIdeal.Region.hidden_final (V1 m ρ) c, Cert.KernelIdeal.HostRead.entry_mean1,
    Cert.KernelIdeal.HostRead.entry_arg0, Cert.KernelIdeal.HostRead.entry_arg2, Cert.KernelIdeal.HostRead.entry_arg4,
    Cert.KernelIdeal.HostRead.entry_bias1]
  exact Cert.ReferenceIdeal.Bridge.hidden_eq _ _ _ _ _

/-- The first result array is the reference's embedding of the launch arguments. -/
theorem embed_result (c : Dev nD) :
    (dat1 (V3 (F := Ideal) m ρ) c).arrAt 7 cfg1.N
      = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.Region1.embed_final (V3 m ρ) c, Cert.KernelIdeal.HostRead.entry_mean2,
    Cert.KernelIdeal.HostRead.entry_hidden, Cert.KernelIdeal.HostRead.entry_arg5, Cert.KernelIdeal.HostRead.entry_arg7,
    Cert.KernelIdeal.HostRead.entry_bias2, hidden_result]
  exact Cert.ReferenceIdeal.Bridge.embed_eq _ _ _ _ _ _ _ _

/-- The second result array is the reference's reconstruction of the launch arguments. -/
theorem recon_result (c : Dev nD) :
    (dat1 (V3 (F := Ideal) m ρ) c).arrAt 8 cfg1.N
      = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.KernelIdeal.Region1.recon_final (V3 m ρ) c, Cert.KernelIdeal.HostRead.entry_mean2,
    Cert.KernelIdeal.HostRead.entry_hidden, Cert.KernelIdeal.HostRead.entry_arg5, Cert.KernelIdeal.HostRead.entry_arg7,
    Cert.KernelIdeal.HostRead.entry_bias2, Cert.KernelIdeal.HostRead.entry_arg8, Cert.KernelIdeal.HostRead.entry_bias3,
    hidden_result]
  exact (congrArg (fun z => projLayer z (m ((c : Thread nD τ).loc main_arg8)) (shapeCast Cert.ReferenceIdeal.S1x64 (m ((c : Thread nD τ).loc main_arg9)) Cert.ReferenceIdeal.Bridge.casts_S64_S1x64))
    (Cert.ReferenceIdeal.Bridge.embed_eq _ _ _ _ _ _ _ _)).trans (Cert.ReferenceIdeal.Bridge.recon_eq _ _ _ _ _ _ _ _ _ _)

end Cert.KernelIdeal.Results

end
-- ==== Proof.lean ====
/-
  A two-layer graph network with mean aggregation and a linear reconstruction: the kernel program against its reference,
  over the extended reals.

  Both programs aggregate over the edges on the host (source rows gathered, scattered-added into destination rows, divided
  by the in-degree clamped at 1) and apply  mean · Wlᵀ + b + x · Wrᵀ  per layer, relu between the layers, and a final
  z · Wrecᵀ + brec.  The kernel program computes the dense parts in two pallas regions over 25 row blocks of 2000 nodes
  and multiplies by the reciprocal of the clamped degree where the reference divides; since the clamped degree is at
  least 1 the two agree at every entry, infinite inputs included, so the precondition is not used.

  The frames: the kernel programs' are the generated ones; the reference's is its generated run with the results
  dropped.  No operation was rewritten when the kernel program was idealized, so nothing is owed for that conjunct.
  The value claim: the kernel program's run with its two results named (the second region's output arrays after all
  write-backs) against the reference's run, the two pairs of results being the same stage functions of arguments that agree.
-/
import proofs.«174159_j26508538150912_2_alg».proof.Defs
import proofs.«174159_j26508538150912_2_alg».proof.Proof.Gen.Kernel
import proofs.«174159_j26508538150912_2_alg».proof.Proof.Gen.Kernel.Skeleton
import proofs.«174159_j26508538150912_2_alg».proof.Proof.Gen.Kernel.Launch
import proofs.«174159_j26508538150912_2_alg».proof.Proof.Gen.Kernel.Points
import proofs.«174159_j26508538150912_2_alg».proof.Proof.Gen.Kernel.Frame
import proofs.«174159_j26508538150912_2_alg».proof.Proof.Gen.KernelIdeal
import proofs.«174159_j26508538150912_2_alg».proof.Proof.Gen.KernelIdeal.Skeleton
import proofs.«174159_j26508538150912_2_alg».proof.Proof.Gen.KernelIdeal.Launch
import proofs.«174159_j26508538150912_2_alg».proof.Proof.Gen.KernelIdeal.Points
import proofs.«174159_j26508538150912_2_alg».proof.Proof.Gen.KernelIdeal.Frame
import proofs.«174159_j26508538150912_2_alg».proof.Proof.Gen.ReferenceIdeal
import proofs.«174159_j26508538150912_2_alg».proof.Proof.Gen.ReferenceIdeal.Run
import proofs.«174159_j26508538150912_2_alg».proof.Proof.Gen.ReferenceIdeal.Read
import proofs.«174159_j26508538150912_2_alg».proof.Proof.Gen.Pre_finite_inputs
import proofs.«174159_j26508538150912_2_alg».proof.Proof.KernelRun
import proofs.«174159_j26508538150912_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs run; their embeddings agree and their reconstructions agree, entry by entry. -/
theorem algebraic : Cert.algebraic_KernelIdeal_ReferenceIdeal := by
  intro m ρ m' ρ' _ hagree
  refine ⟨fun c => (Cert.KernelIdeal.Gen.dat1 (Cert.KernelIdeal.Gen.V3 m ρ) c).arrAt 7 Cert.KernelIdeal.cfg1.N,
    fun c => (Cert.KernelIdeal.Gen.dat1 (Cert.KernelIdeal.Gen.V3 m ρ) c).arrAt 8 Cert.KernelIdeal.cfg1.N,
    Cert.KernelIdeal.Hand.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v58_eq, a0, a1, a2, a3, a4, a5, a6, a7]
    exact (Cert.KernelIdeal.Results.embed_result m ρ c).symm
  · obtain ⟨a0, a1, a2, a3, a4, a5, a6, a7, a8, a9⟩ := hagree c
    rw [Cert.ReferenceIdeal.Read.val_main_v63_eq, a0, a1, a2, a3, a4, a5, a6, a7, a8, a9]
    exact (Cert.KernelIdeal.Results.recon_result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
